-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : FVec F S4096x1 .f32) (main_arg3 : FVec F S4096x1 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S8192x4096 : Shape := ⟨2, ![8192, 4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 16
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S8192x4096, .f32⟩
  | .hbm, ⟨6, _⟩ => ⟨S8192x4096, .bf16⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S1x4096, .f32⟩
  | .hbm, ⟨14, _⟩ => ⟨S8192x4096, .f32⟩
  | .hbm, ⟨15, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  bcast_S4096x1_S4096x4096_0_1 : S4096x1.BroadcastsInDim S4096x4096 (![0, 1] : Fin 2 → Fin S4096x4096.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What each control case of the kernel body leaves behind, read back as a value.

  The body has three cases over the last grid coordinate k (the block of the contracted axis): at k = 0 it first clears
  the carried accumulator; at every k it adds the product of the two current input blocks to the accumulator; at the
  last k it also writes accumulator + bias row into the output block. Each case's stores cover their buffer whole, so
  what the buffer ends holding is the last store's payload, its loads reading the buffers' contents (or, for a load
  that follows a covering store in the same case, that store's payload).
-/
import proofs.«113895_j71880572666115_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.Bridge.Pieces

open Cert.KernelIdeal Cert.KernelIdeal.Gen

variable {F : FTy → Type} [FloatOps F]

theorem offsets_zero : (![0, 0] : Fin 2 → Nat) = fun _ => 0 := funext fun a => by fin_cases a <;> rfl

/-- A middle block (0 < k < last): the accumulator holding `acc` ends at `acc + x·wᵀ` of the two input blocks. -/
theorem acc_middle (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .bf16) (x1 : Vec F S1024x512 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero offsets_zero]
  simp only [View.readAt_eq_ld, harg3.read_unread, harg4.read_unread, harg7.read_unread,
    View.ld_unit_zero (S := S1024x512) offsets_zero, View.ld_unit_zero (S := S1024x1024) offsets_zero]

/-- The last block: the accumulator again ends at `acc + x·wᵀ`, -/
theorem acc_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .bf16) (x1 : Vec F S1024x512 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero offsets_zero]
  simp only [View.readAt_eq_ld, harg3.read_unread, harg4.read_unread, harg5.read_unread, harg7.read_unread,
    View.ld_unit_zero (S := S1024x512) offsets_zero, View.ld_unit_zero (S := S1024x1024) offsets_zero,
    View.ld_unit_zero (S := S1x1024) offsets_zero]

/-- and the output block is that new accumulator plus the bias row (the load of the accumulator follows its covering
    store, so it reads the store's payload). -/
theorem out_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .bf16) (x1 : Vec F S1024x512 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero offsets_zero, View.readCov_unit_zero (S := S1024x1024) _ offsets_zero]
  simp only [View.readAt_eq_ld, harg3.read_unread, harg4.read_unread, harg5.read_unread, harg7.read_unread,
    View.ld_unit_zero (S := S1024x512) offsets_zero, View.ld_unit_zero (S := S1024x1024) offsets_zero,
    View.ld_unit_zero (S := S1x1024) offsets_zero]

/-- The first block (k = 0): the accumulator is cleared and then ends at `0 + x·wᵀ`. -/
theorem acc_first (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .bf16) (x1 : Vec F S1024x512 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) offsets_zero, View.readCov_unit_zero (S := S1024x1024) _ offsets_zero]
  simp only [View.readAt_eq_ld, harg3.read_unread, harg4.read_unread, harg5.read_unread, harg7.read_unread,
    View.ld_unit_zero (S := S1024x512) offsets_zero, View.ld_unit_zero (S := S1024x1024) offsets_zero,
    View.ld_unit_zero (S := S1x1024) offsets_zero]

end Cert.Bridge.Pieces

end
-- ==== Proof.LibDotT.lean ====
/- A matrix product against a transposed right operand, [R, K] × [C, K] → [R, C] (both operands contracted along their second
   axis), into a zero accumulator, read at an index over the extended reals: entry (p, q) is the sum over k of
   lhs(p, k) · rhs(q, k). For any dimension record with these lists. Names no program. -/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

namespace Cert.LibDotT

open Idealize.ShloMosaic Idealize.ShloMosaic.ValueIdx

/-- The dimension numbers of a `[R, K] × [C, K] → [R, C]` product: the second axis of each operand is contracted. -/
abbrev dotT (R K C : Nat)
    (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ where
  lhsContracting := [1]
  rhsContracting := [1]
  lhsNonContracting := [0]
  rhsNonContracting := [0]
  lhsBatch := []
  rhsBatch := []
  wf := wf

section
variable {R K C : Nat} (wf : DotDims.WF ⟨2, ![R, K]⟩ ⟨2, ![C, K]⟩ ⟨2, ![R, C]⟩ [1] [1] [0] [0] [] [])

/-- The left operand's index for output `(p, q)` and contraction coordinate `k` is `(p, k)`. -/
theorem dotT_lhsIdx (p : Fin R) (q : Fin C) (k : Fin K) :
    (dotT R K C wf).lhsIdx (ix2 p q) ((contrEquiv1 (dotT R K C wf) K rfl rfl).symm k) = ix2 p k := by
  have hk := contrEquiv1_symm_val (dotT R K C wf) K rfl rfl k
  funext a
  refine Fin.ext ?_
  match a with
  | ⟨0, _⟩ =>
    show ((dotT R K C wf).lhsIdx (ix2 p q) ((contrEquiv1 (dotT R K C wf) K rfl rfl).symm k) 0).val = p.val
    unfold DotDims.lhsIdx
    rw [dif_neg (show ¬(0 : Fin 2) ∈ (dotT R K C wf).lhsBatch from List.not_mem_nil),
      dif_pos (show (0 : Fin 2) ∈ (dotT R K C wf).lhsNonContracting from List.mem_singleton.mpr rfl)]
    rfl
  | ⟨1, _⟩ =>
    exact ((dotT R K C wf).lhsIdx_val_of_single (cl := (1 : Fin 2)) rfl (ix2 p q) _).trans hk

/-- The right operand's index for output `(p, q)` and contraction coordinate `k` is `(q, k)`. -/
theorem dotT_rhsIdx (p : Fin R) (q : Fin C) (k : Fin K) :
    (dotT R K C wf).rhsIdx (ix2 p q) ((contrEquiv1 (dotT R K C wf) K rfl rfl).symm k) = ix2 q k := by
  have hk := contrEquiv1_symm_val (dotT R K C wf) K rfl rfl k
  funext a
  refine Fin.ext ?_
  match a with
  | ⟨0, _⟩ =>
    show ((dotT R K C wf).rhsIdx (ix2 p q) ((contrEquiv1 (dotT R K C wf) K rfl rfl).symm k) 0).val = q.val
    unfold DotDims.rhsIdx
    rw [dif_neg (show ¬(0 : Fin 2) ∈ (dotT R K C wf).rhsBatch from List.not_mem_nil),
      dif_pos (show (0 : Fin 2) ∈ (dotT R K C wf).rhsNonContracting from List.mem_singleton.mpr rfl)]
    rfl
  | ⟨1, _⟩ =>
    exact ((dotT R K C wf).rhsIdx_val_of_single (cr := (1 : Fin 2)) rfl (ix2 p q) _).trans hk

/-- THE PRODUCT AGAINST THE TRANSPOSE INTO A ZERO ACCUMULATOR AT `(p, q)`: the sum over `k` of `lhs (p, k) * rhs (q, k)`. -/
theorem matmulT_zero_apply {φ₁ φ₂ : FTy} (prec : Option ContractPrecision)
    (lhs : FVec Ideal ⟨2, ![R, K]⟩ φ₁) (rhs : FVec Ideal ⟨2, ![C, K]⟩ φ₂) (p : Fin R) (q : Fin C) :
    FloatOps.matmul (dotT R K C wf) prec lhs rhs (constant ⟨2, ![R, C]⟩ .f32 0x00000000#32) (ix2 p q)
      = ∑ k : Fin K, lhs (ix2 p k) * rhs (ix2 q k) := by
  rw [Ideal.matmul_constant_zero_apply, ← Equiv.sum_comp (contrEquiv1 (dotT R K C wf) K rfl rfl).symm]
  refine Finset.sum_congr rfl fun k _ => ?_
  rw [dotT_lhsIdx wf p q k, dotT_rhsIdx wf p q k]

end

end Cert.LibDotT

end
-- ==== Proof.Payload.lean ====
/-
  The body's three stored values, read at one entry (p, q) of the 1024 × 1024 block, over the extended reals.

  * the cleared accumulator is 0 everywhere;
  * one accumulation step holds  acc(p, q) + Σ_kk x(p, kk) · w(q, kk)  — the product contracts the SECOND axis of both
    512-wide input blocks, so the right operand enters transposed, and it accumulates onto a zero matrix, which adds
    nothing;
  * the output is  acc(p, q) + bias(0, q): the one bias row is repeated down the rows.
  A cast of a block to its own shape, and a change of float format, are the identity.
-/
import proofs.«113895_j71880572666115_2_alg».proof.Proof.Gen.KernelIdeal.Skeleton
import proofs.«113895_j71880572666115_2_alg».proof.Proof.LibDotT
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.Bridge.Payload

open Cert.KernelIdeal Cert.KernelIdeal.Gen

/-- The cleared accumulator is zero at every entry. -/
theorem cleared_apply (p q : Fin 1024) : k0_pay1 (F := Ideal) (ix2 p q) = 0 := by
  unfold k0_pay1
  rw [shapeCast_self]
  exact Ideal.ofBits_zero_f32

/-- One accumulation step at (p, q): the old entry plus the 512-term inner product of row p of the left block with
    row q of the right block. -/
theorem step_apply (acc : Vec Ideal S1024x1024 .f32) (x w : Vec Ideal S1024x512 .bf16) (p q : Fin 1024) :
    k0_pay2 (F := Ideal) acc x w (ix2 p q) = acc (ix2 p q) + ∑ kk : Fin 512, x (ix2 p kk) * w (ix2 q kk) := by
  unfold k0_pay2
  rw [shapeCast_self, shapeCast_self, shapeCast_self, addf_apply]
  exact congrArg (acc (ix2 p q) + ·)
    (Cert.LibDotT.matmulT_zero_apply dot_S1024x512_S1024x512_S1024x1024_1_1_0_0_n_n_wf none x w p q)

/-- The output at (p, q): the accumulator's entry plus the bias row's entry q. -/
theorem biased_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  rw [shapeCast_self, addf_apply, broadcastTo_1b_ab_apply]

end Cert.Bridge.Payload

end
-- ==== Proof.Blocks.lean ====
/-
  Where the kernel's operands come from.

  The grid is 8 × 4 × 8: point t is (i, j, k) = (t / 32, t / 8 mod 4, t mod 8), the last coordinate fastest. At point t
  the left window holds rows i·1024 … of the flattened activations and columns k·512 …; the right window rows j·1024 …
  of the dequantised weights and the same columns; the bias window columns j·1024 … of the one bias row; the output
  window is block (i, j). The arrays the windows range over are written by the lines before the call: the activations
  flattened from [4, 2048, 4096] to [8192, 4096] (row b·2048 + s is (b, s)), the weights dequantised
  (code − zero point) · scale with the per-row parameters repeated along the row, the bias as a 1 × 4096 row. Narrowing
  to a shorter float format changes nothing over the extended reals.
-/
import proofs.«113895_j71880572666115_2_alg».proof.Proof.Gen.KernelIdeal.Frame
import proofs.«113895_j71880572666115_2_alg».proof.Proof.Gen.ReferenceIdeal.Read
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx

namespace Cert.Bridge.Blocks

open Cert.KernelIdeal Cert.KernelIdeal.Gen

variable (m : (ℓ : Loc nD τ sig) → Buf (Elt Ideal) ℓ)

/-- The four index maps at point t, in closed form: decided once over the 256 points. -/
theorem grid_maps : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- Entry (p, kk) of the left block at point t is entry (i·1024 + p, k·512 + kk) of the flattened activations. -/
theorem left_block (c : Dev nD) (t : Fin cfg0.N) (p : Fin 1024) (kk : Fin 512)
    (hr : t.val / 32 * 1024 + p.val < 8192) (hk : t.val % 8 * 512 + kk.val < 4096) :
    (iblk m c 0 t : Vec Ideal S1024x512 .bf16) (ix2 p kk)
      = (V m c main_v1 : S8192x4096.Idx → EReal) (ix2 ⟨t.val / 32 * 1024 + p.val, hr⟩ ⟨t.val % 8 * 512 + kk.val, hk⟩) := by
  obtain ⟨e0, e1, -⟩ := grid_maps t
  unfold iblk
  rw [View.read_apply]
  show V m c main_v1 _ = V m c main_v1 _
  congr 1
  funext a
  apply Fin.ext
  match a with
  | ⟨0, _⟩ => show win0_0.index t 0 * 1024 + 1 * p.val = t.val / 32 * 1024 + p.val; rw [e0]; omega
  | ⟨1, _⟩ => show win0_0.index t 1 * 512 + 1 * kk.val = t.val % 8 * 512 + kk.val; rw [e1]; omega

/-- Entry (q, kk) of the right block at point t is entry (j·1024 + q, k·512 + kk) of the dequantised weights. -/
theorem right_block (c : Dev nD) (t : Fin cfg0.N) (q : Fin 1024) (kk : Fin 512)
    (hn : t.val / 8 % 4 * 1024 + q.val < 4096) (hk : t.val % 8 * 512 + kk.val < 4096) :
    (iblk m c 1 t : Vec Ideal S1024x512 .bf16) (ix2 q kk)
      = (V m c main_v7 : S4096x4096.Idx → EReal) (ix2 ⟨t.val / 8 % 4 * 1024 + q.val, hn⟩ ⟨t.val % 8 * 512 + kk.val, hk⟩) := by
  obtain ⟨-, -, e0, e1, -⟩ := grid_maps t
  unfold iblk
  rw [View.read_apply]
  show V m c main_v7 _ = V m c main_v7 _
  congr 1
  funext a
  apply Fin.ext
  match a with
  | ⟨0, _⟩ => show win0_1.index t 0 * 1024 + 1 * q.val = t.val / 8 % 4 * 1024 + q.val; rw [e0]; omega
  | ⟨1, _⟩ => show win0_1.index t 1 * 512 + 1 * kk.val = t.val % 8 * 512 + kk.val; rw [e1]; omega

/-- Entry (0, q) of the bias block at point t is entry (0, j·1024 + q) of the bias row. -/
theorem bias_block (c : Dev nD) (t : Fin cfg0.N) (q : Fin 1024) (hn : t.val / 8 % 4 * 1024 + q.val < 4096) :
    (iblk m c 2 t : Vec Ideal S1x1024 .f32) (ix2 (0 : Fin 1) q)
      = (V m c main_v8 : S1x4096.Idx → EReal) (ix2 (0 : Fin 1) ⟨t.val / 8 % 4 * 1024 + q.val, hn⟩) := by
  obtain ⟨-, -, -, -, e0, e1, -⟩ := grid_maps t
  unfold iblk
  rw [View.read_apply]
  show V m c main_v8 _ = V m c main_v8 _
  congr 1
  funext a
  apply Fin.ext
  match a with
  | ⟨0, _⟩ => show win0_2.index t 0 * 1 + 1 * 0 = 0; rw [e0]
  | ⟨1, _⟩ => show win0_2.index t 1 * 1024 + 1 * q.val = t.val / 8 % 4 * 1024 + q.val; rw [e1]; omega

/-- The left array as the call finds it: the activations flattened. -/
theorem entry_left (c : Dev nD) : (V m c main_v1 : S8192x4096.Idx → EReal)
    = shapeCast S8192x4096 (m ((c : Thread nD τ).loc main_arg0)) shapeCasts_S4x2048x4096_S8192x4096 := by
  show StableHlo.after hostOps0 (fun b => m (c, b)) (Proc.devRef .tc main_v1) = _
  after_results
  all_goals rfl

/-- Row b·2048 + s of the flattened activations is row (b, s). -/
theorem entry_left_apply (c : Dev nD) (b : Fin 4) (s : Fin 2048) (k : Fin 4096) (hr : b.val * 2048 + s.val < 8192) :
    (V m c main_v1 : S8192x4096.Idx → EReal) (ix2 ⟨b.val * 2048 + s.val, hr⟩ k)
      = m ((c : Thread nD τ).loc main_arg0) (ix3 b s k) := by
  rw [entry_left]
  refine shapeCast_apply _ _ _ _ ?_
  show (S4x2048x4096.rowMajor (ix3 b s k)).val = (S8192x4096.rowMajor (ix2 ⟨b.val * 2048 + s.val, hr⟩ k)).val
  rw [Shape.rowMajor_val_three, Shape.rowMajor_val_two]
  rfl

/-- The right array as the call finds it: the weights dequantised — the very stage the reference computes. -/
theorem entry_right (c : Dev nD) : (V m c main_v7 : S4096x4096.Idx → EReal)
    = Cert.ReferenceIdeal.Read.val_main_v4 (F := Ideal) (m ((c : Thread nD τ).loc main_arg1))
        (m ((c : Thread nD τ).loc main_arg2)) (m ((c : Thread nD τ).loc main_arg3)) := by
  show StableHlo.after hostOps0 (fun b => m (c, b)) (Proc.devRef .tc main_v7) = _
  after_results
  all_goals rfl

/-- The bias array as the call finds it: the bias vector as one row. -/
theorem entry_bias (c : Dev nD) : (V m c main_v8 : S1x4096.Idx → EReal)
    = shapeCast S1x4096 (m ((c : Thread nD τ).loc main_arg4)) shapeCasts_S4096_S1x4096 := by
  show StableHlo.after hostOps0 (fun b => m (c, b)) (Proc.devRef .tc main_v8) = _
  after_results
  all_goals rfl

theorem entry_bias_apply (c : Dev nD) (n : Fin 4096) :
    (V m c main_v8 : S1x4096.Idx → EReal) (ix2 (0 : Fin 1) n) = m ((c : Thread nD τ).loc main_arg4) (ix1 n) := by
  rw [entry_bias]
  exact shapeCast_a_1a_apply _ _ _ _

end Cert.Bridge.Blocks

end
-- ==== Proof.SumBlocks.lean ====
/-
  Regrouping a finite sum into consecutive blocks, in any commutative monoid: the sum of the first `A * B` terms of a
  sequence is the sum over `A` blocks of the sum of the block's `B` terms, block `a` holding the terms `a * B + b`.
  Only commutativity and associativity of `+` are used, so the law holds on the extended reals with no finiteness
  assumption (an infinite term is the same term on both sides).
-/
import Mathlib.Algebra.BigOperators.Fin
import Mathlib.Algebra.BigOperators.Intervals

namespace Cert.Bridge

open Finset

/-- Over ranges: `A` blocks of `B` consecutive terms are the first `A * B` terms. -/
theorem sum_range_blocks {M : Type*} [AddCommMonoid M] (A B : ℕ) (f : ℕ → M) :
    ∑ a ∈ range A, ∑ b ∈ range B, f (a * B + b) = ∑ k ∈ range (A * B), f k := by
  induction A with
  | zero => simp
  | succ A ih =>
    rw [sum_range_succ, ih, Nat.succ_mul, sum_range_add]

/-- The same with the block's terms and the whole sum indexed by `Fin`: the form a blocked contraction has. -/
theorem sum_blocks {M : Type*} [AddCommMonoid M] (A B N : ℕ) (hN : A * B = N) (f : ℕ → M) :
    ∑ a ∈ range A, ∑ b : Fin B, f (a * B + b.val) = ∑ k : Fin N, f k.val := by
  subst hN
  rw [Fin.sum_univ_eq_sum_range (fun k => f k) (A * B), ← sum_range_blocks]
  refine sum_congr rfl fun a _ => ?_
  exact Fin.sum_univ_eq_sum_range (fun b => f (a * B + b)) B

end Cert.Bridge
-- ==== Proof.Spec.lean ====
/-
  The specification: a 4096-long contraction taken 512 terms at a time.

  For a left matrix X (8192 × 4096) and a right matrix W (4096 × 4096), both contracted along their second axis, entry
  (r, n) of X · Wᵀ is  Σ_{k < 4096} X(r, k) · W(n, k).  A blocked product reaches it through the partial sums over the
  first `nb` blocks of 512 terms; each block adds its own 512 terms to the running value, and eight blocks are the whole
  sum. Rows and columns are carried as natural numbers (a term outside the matrices is 0 and is never met), so that
  the arithmetic of block offsets is plain arithmetic.
-/
import proofs.«113895_j71880572666115_2_alg».proof.Proof.SumBlocks
import Idealize.ShloMosaic.PureOps.Ideal
import Idealize.ShloMosaic.Lib.ValueIdx

noncomputable section

open Idealize.ShloMosaic Idealize.ShloMosaic.ValueIdx

namespace Cert.Bridge.Spec

/-- The left matrix's, the right matrix's and the result's index types. -/
abbrev LeftIdx : Type := (⟨2, ![8192, 4096]⟩ : Shape).Idx
abbrev RightIdx : Type := (⟨2, ![4096, 4096]⟩ : Shape).Idx

/-- Term k of entry (r, n): X(r, k) · W(n, k). -/
def term (X : LeftIdx → EReal) (W : RightIdx → EReal) (r n k : ℕ) : EReal :=
  if h : r < 8192 ∧ n < 4096 ∧ k < 4096 then X (ix2 ⟨r, h.1⟩ ⟨k, h.2.2⟩) * W (ix2 ⟨n, h.2.1⟩ ⟨k, h.2.2⟩) else 0

theorem term_of_lt (X : LeftIdx → EReal) (W : RightIdx → EReal) {r n k : ℕ} (hr : r < 8192) (hn : n < 4096)
    (hk : k < 4096) : term X W r n k = X (ix2 ⟨r, hr⟩ ⟨k, hk⟩) * W (ix2 ⟨n, hn⟩ ⟨k, hk⟩) :=
  dif_pos ⟨hr, hn, hk⟩

/-- Block `a` of entry (r, n): its 512 terms. -/
def blockDot (X : LeftIdx → EReal) (W : RightIdx → EReal) (r n a : ℕ) : EReal :=
  ∑ kk : Fin 512, term X W r n (a * 512 + kk.val)

/-- The partial inner product of entry (r, n) over the first `nb` blocks. -/
def partialDot (X : LeftIdx → EReal) (W : RightIdx → EReal) (r n nb : ℕ) : EReal :=
  ∑ a ∈ Finset.range nb, blockDot X W r n a

/-- After the first block, starting from zero. -/
theorem partialDot_one (X : LeftIdx → EReal) (W : RightIdx → EReal) (r n : ℕ) :
    partialDot X W r n 1 = 0 + blockDot X W r n 0 := by
  unfold partialDot
  rw [Finset.sum_range_one, zero_add]

/-- One more block adds its terms to the running value. -/
theorem partialDot_succ (X : LeftIdx → EReal) (W : RightIdx → EReal) (r n nb : ℕ) :
    partialDot X W r n (nb + 1) = partialDot X W r n nb + blockDot X W r n nb :=
  Finset.sum_range_succ _ _

/-- Eight blocks are the whole contraction. -/
theorem partialDot_full (X : LeftIdx → EReal) (W : RightIdx → EReal) (r : Fin 8192) (n : Fin 4096) :
    partialDot X W r.val n.val 8 = ∑ k : Fin 4096, X (ix2 r k) * W (ix2 n k) := by
  unfold partialDot blockDot
  rw [Cert.Bridge.sum_blocks 8 512 4096 (by norm_num) (term X W r.val n.val)]
  exact Finset.sum_congr rfl fun k _ => term_of_lt X W r.isLt n.isLt k.isLt

end Cert.Bridge.Spec

end
-- ==== Proof.Accumulate.lean ====
/-
  The accumulation across the contracted axis.

  At point t = (i, j, k) the body adds to the carried accumulator the product of the left block (rows i·1024 …, columns
  k·512 …) with the transposed right block (rows j·1024 …, the same columns). So after point t entry (p, q) of the
  accumulator is the partial inner product of row i·1024 + p of the activations with row j·1024 + q of the weights over
  the first k + 1 blocks of 512 terms: at k = 0 it is 0 plus block 0, and each later point adds block k to what the
  point before left — the point before has the same (i, j) and the coordinate k − 1, since k moves fastest. At the
  last k the output block is that accumulator (now all eight blocks) plus the bias entry of its column.
-/
import proofs.«113895_j71880572666115_2_alg».proof.Proof.Pieces
import proofs.«113895_j71880572666115_2_alg».proof.Proof.Payload
import proofs.«113895_j71880572666115_2_alg».proof.Proof.Blocks
import proofs.«113895_j71880572666115_2_alg».proof.Proof.Spec

noncomputable section

open Idealize.ShloMosaic Idealize.ShloMosaic.TcCoe Idealize.SL.Sem Idealize.ShloMosaic.ValueIdx

namespace Cert.Bridge.Accumulate

open Cert.KernelIdeal Cert.KernelIdeal.Gen Cert.Bridge.Spec Cert.Bridge.Pieces Cert.Bridge.Payload Cert.Bridge.Blocks

variable (m : (ℓ : Loc nD τ sig) → Buf (Elt Ideal) ℓ)

/-- The flattened activations and the dequantised weights, as the call finds them. -/
abbrev acts (c : Dev nD) : LeftIdx → EReal := (V m c main_v1 : S8192x4096.Idx → EReal)
abbrev wts (c : Dev nD) : RightIdx → EReal := (V m c main_v7 : S4096x4096.Idx → EReal)

theorem points : cfg0.N = 256 := N_0

/-- The three input blocks at point t, at their literal shapes. -/
abbrev leftBlk (c : Dev nD) (t : Fin cfg0.N) : Vec Ideal S1024x512 .bf16 := iblk m c 0 t
abbrev rightBlk (c : Dev nD) (t : Fin cfg0.N) : Vec Ideal S1024x512 .bf16 := iblk m c 1 t
abbrev biasBlk (c : Dev nD) (t : Fin cfg0.N) : Vec Ideal S1x1024 .f32 := iblk m c 2 t

/-- The 512 products the body forms at point t for entry (p, q) are block k of entry (i·1024 + p, j·1024 + q). -/
theorem block_products (c : Dev nD) (t : Fin cfg0.N) (p q : Fin 1024) :
    ∑ kk : Fin 512, leftBlk m c t (ix2 p kk) * rightBlk m c t (ix2 q kk)
      = blockDot (acts m c) (wts m c) (t.val / 32 * 1024 + p.val) (t.val / 8 % 4 * 1024 + q.val) (t.val % 8) := by
  have hN : t.val < 256 := lt_of_lt_of_eq t.isLt points
  unfold blockDot
  refine Finset.sum_congr rfl fun kk _ => ?_
  have hr : t.val / 32 * 1024 + p.val < 8192 := by omega
  have hn : t.val / 8 % 4 * 1024 + q.val < 4096 := by omega
  have hk : t.val % 8 * 512 + kk.val < 4096 := by omega
  rw [term_of_lt _ _ hr hn hk]
  exact congrArg₂ (· * ·) (left_block m c t p kk hr hk) (right_block m c t q kk hn hk)

/-- At a point with k = 0 the accumulator is cleared first: it ends at 0 plus block 0. -/
theorem first_step (c : Dev nD) (t : Fin cfg0.N) (h0 : t.val % 8 = 0) (p q : Fin 1024) :
    ((outsAt0 m c t.val t.isLt).2 : Vec Ideal S1024x1024 .f32) (ix2 p q)
      = partialDot (acts m c) (wts m c) (t.val / 32 * 1024 + p.val) (t.val / 8 % 4 * 1024 + q.val) (t.val % 8 + 1) := by
  have h1 : ¬t.val % 8 = 7 := by omega
  rw [outsAt0_A m c t h0 h1]
  dsimp only
  refine (congrFun (acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
  refine (step_apply (k0_pay1 (F := Ideal)) (leftBlk m c t) (rightBlk m c t) p q).trans ?_
  rw [cleared_apply, block_products m c t p q, h0, Nat.zero_add, partialDot_one]

/-- At a later point the accumulator gains block k over what the point before left. -/
theorem later_step (c : Dev nD) (t : Fin cfg0.N) (h0 : ¬t.val % 8 = 0) (p q : Fin 1024)
    (ih : ∀ (n : ℕ) (hn : n < cfg0.N), n + 1 = t.val → ((outsAt0 m c n hn).2 : Vec Ideal S1024x1024 .f32) (ix2 p q)
      = partialDot (acts m c) (wts m c) (n / 32 * 1024 + p.val) (n / 8 % 4 * 1024 + q.val) (n % 8 + 1)) :
    ((outsAt0 m c t.val t.isLt).2 : Vec Ideal S1024x1024 .f32) (ix2 p q)
      = partialDot (acts m c) (wts m c) (t.val / 32 * 1024 + p.val) (t.val / 8 % 4 * 1024 + q.val) (t.val % 8 + 1) := by
  have hprev := ih (t.val - 1) (Nat.lt_of_le_of_lt (Nat.sub_le _ _) t.isLt) (by omega)
  have e1 : (t.val - 1) / 32 = t.val / 32 := by omega
  have e2 : (t.val - 1) / 8 % 4 = t.val / 8 % 4 := by omega
  have e3 : (t.val - 1) % 8 + 1 = t.val % 8 := by omega
  rw [e1, e2, e3] at hprev
  by_cases h1 : t.val % 8 = 7
  · rw [outsAt0_C m c t h0 h1]
    dsimp only
    refine (congrFun (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
    refine (step_apply (outsAt0 m c (t.val - 1) (Nat.lt_of_le_of_lt (Nat.sub_le _ _) t.isLt)).2 (leftBlk m c t) (rightBlk m c t) p q).trans ?_
    refine (congrArg₂ (· + ·) hprev (block_products m c t p q)).trans ?_
    exact (partialDot_succ _ _ _ _ _).symm
  · rw [outsAt0_B m c t h0 h1]
    dsimp only
    refine (congrFun (acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 p q)).trans ?_
    refine (step_apply (outsAt0 m c (t.val - 1) (Nat.lt_of_le_of_lt (Nat.sub_le _ _) t.isLt)).2 (leftBlk m c t) (rightBlk m c t) p q).trans ?_
    refine (congrArg₂ (· + ·) hprev (block_products m c t p q)).trans ?_
    exact (partialDot_succ _ _ _ _ _).symm

/-- THE INVARIANT: after point n the accumulator's entry (p, q) is the partial inner product over the first k + 1 blocks. -/
theorem scratch_eq (c : Dev nD) (p q : Fin 1024) : ∀ (n : ℕ) (hn : n < cfg0.N),
    ((outsAt0 m c n hn).2 : Vec Ideal S1024x1024 .f32) (ix2 p q)
      = partialDot (acts m c) (wts m c) (n / 32 * 1024 + p.val) (n / 8 % 4 * 1024 + q.val) (n % 8 + 1)
  | 0, hn => first_step m c ⟨0, hn⟩ rfl p q
  | n + 1, hn => by
    by_cases h0 : (n + 1) % 8 = 0
    · exact first_step m c ⟨n + 1, hn⟩ h0 p q
    · refine later_step m c ⟨n + 1, hn⟩ h0 p q fun n' hn' e => ?_
      have e' : n = n' := (Nat.succ.inj e).symm
      subst e'
      exact scratch_eq c p q n hn'

/-- At the last k the output block's entry (p, q) is the whole inner product plus the bias entry of its column. -/
theorem output_eq (c : Dev nD) (t : Fin cfg0.N) (h1 : t.val % 8 = 7) (p q : Fin 1024)
    (hn : t.val / 8 % 4 * 1024 + q.val < 4096) :
    ((outsAt0 m c t.val t.isLt).1 : Vec Ideal S1024x1024 .f32) (ix2 p q)
      = partialDot (acts m c) (wts m c) (t.val / 32 * 1024 + p.val) (t.val / 8 % 4 * 1024 + q.val) 8
        + (V m c main_v8 : S1x4096.Idx → EReal) (ix2 (0 : Fin 1) ⟨t.val / 8 % 4 * 1024 + q.val, hn⟩) := by
  have h0 : ¬t.val % 8 = 0 := by omega
  have hs := scratch_eq m c p q t.val t.isLt
  rw [outsAt0_C m c t h0 h1] at hs ⊢
  dsimp only at hs ⊢
  have hacc := (congrFun (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).symm.trans hs
  rw [h1] at hacc
  refine (congrFun (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
  refine (biased_apply (k0_pay2 (F := Ideal) (outsAt0 m c (t.val - 1) (Nat.lt_of_le_of_lt (Nat.sub_le _ _) t.isLt)).2 (leftBlk m c t) (rightBlk m c t)) (biasBlk m c t) p q).trans ?_
  exact congrArg₂ (· + ·) hacc (bias_block m c t q hn)

end Cert.Bridge.Accumulate

end
-- ==== Proof.Output.lean ====
/-
  The kernel's result as one function of the arrays it was called on.

  Only the points with the last block of the contracted axis (k = 7) write their output block back, and block (i, j)
  written there holds, at (p, q), the whole inner product of row i·1024 + p of the activations with row j·1024 + q of
  the weights plus the bias entry of column j·1024 + q: a block of the one whole-array function `product`. The 32
  written blocks tile the 8192 × 4096 result, so the result array ends at `product`; the line after the call views it
  as [4, 2048, 4096], entry (b, s, n) being entry (b·2048 + s, n).
-/
import proofs.«113895_j71880572666115_2_alg».proof.Proof.Accumulate

noncomputable section

open Idealize.ShloMosaic Idealize.ShloMosaic.TcCoe Idealize.SL.Sem Idealize.ShloMosaic.ValueIdx
open Idealize.ShloMosaic.Pipeline (Dat)

namespace Cert.Bridge.Output

open Cert.KernelIdeal Cert.KernelIdeal.Gen Cert.Bridge.Spec Cert.Bridge.Blocks Cert.Bridge.Accumulate

variable (m : (ℓ : Loc nD τ sig) → Buf (Elt Ideal) ℓ) (ρ : Dev nD → PrngReg)

/-- The bias row as the call finds it, and the two float arguments the result is stated in, at their literal types. -/
abbrev biasRow (c : Dev nD) : S1x4096.Idx → EReal := V m c main_v8
abbrev xArg (c : Dev nD) : S4x2048x4096.Idx → EReal := m ((c : Thread nD τ).loc main_arg0)
abbrev biasArg (c : Dev nD) : S4096.Idx → EReal := m ((c : Thread nD τ).loc main_arg4)

/-- The whole result before the final reshape: X · Wᵀ plus the bias row, entry by entry. -/
def product (c : Dev nD) : S8192x4096.Idx → EReal := fun i =>
  (∑ k : Fin 4096, acts m c (ix2 (i 0) k) * wts m c (ix2 (i 1) k)) + (V m c main_v8 : S1x4096.Idx → EReal) (ix2 (0 : Fin 1) (i 1))

/-- What a point with k = 7 writes back is its block of `product`. -/
theorem written_block (c : Dev nD) (t : Fin cfg0.N) (hf : (cfg0.win 3).flush t = true) :
    (dats m 0 c).flushed 3 t = ((cfg0.win 3).blk t).view.read (Elt Ideal) (product m c) := by
  have h1 : t.val % 8 = 7 := (flush0_3 t).mp hf
  have hN : t.val < 256 := lt_of_lt_of_eq t.isLt points
  obtain ⟨-, -, -, -, -, -, e0, e1⟩ := grid_maps t
  show (cfg0.win 3).cut (grid0.coords t) ((dats m 0 c).after 3 t) = _
  rw [after0_3]
  funext y
  obtain ⟨p, q, rfl⟩ : ∃ (p q : Fin 1024), y = ix2 p q := ⟨y 0, y 1, eq_ix2 y⟩
  have hr : t.val / 32 * 1024 + p.val < 8192 := by omega
  have hn : t.val / 8 % 4 * 1024 + q.val < 4096 := by omega
  have hemb : ((cfg0.win 3).blk t).view.emb (ix2 p q)
      = (ix2 ⟨t.val / 32 * 1024 + p.val, hr⟩ ⟨t.val / 8 % 4 * 1024 + q.val, hn⟩ : S8192x4096.Idx) := by
    funext a
    apply Fin.ext
    match a with
    | ⟨0, _⟩ => show win0_3.index t 0 * 1024 + 1 * p.val = t.val / 32 * 1024 + p.val; rw [e0]; omega
    | ⟨1, _⟩ => show win0_3.index t 1 * 1024 + 1 * q.val = t.val / 8 % 4 * 1024 + q.val; rw [e1]; omega
  show ((outsAt0 m c t.val t.isLt).1 : Vec Ideal S1024x1024 .f32) (ix2 p q) = product m c (((cfg0.win 3).blk t).view.emb (ix2 p q))
  rw [hemb, output_eq m c t h1 p q hn]
  show _ = (∑ k : Fin 4096, acts m c (ix2 ⟨t.val / 32 * 1024 + p.val, hr⟩ k) * wts m c (ix2 ⟨t.val / 8 % 4 * 1024 + q.val, hn⟩ k)) + _
  rw [← partialDot_full (acts m c) (wts m c) ⟨t.val / 32 * 1024 + p.val, hr⟩ ⟨t.val / 8 % 4 * 1024 + q.val, hn⟩]

/-- An entry lies in point t's output block iff each coordinate is in the block's range. -/
theorem mem_block (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v9).slice (win0_3.rect t)).set ↔ _
  rw [View.set_slice_whole, Rect.mem_set_unit]
  exact Iff.rfl

/-- Every entry of the result is in the block some writing point covers: point (r / 1024, n / 1024, 7). -/
theorem covered (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have ht : (i 0).val / 1024 * 32 + (i 1).val / 1024 * 8 + 7 < cfg0.N := by rw [points]; omega
  refine ⟨⟨_, ht⟩, (flush0_3 _).mpr (by show ((i 0).val / 1024 * 32 + (i 1).val / 1024 * 8 + 7) % 8 = 7; omega), ?_⟩
  obtain ⟨-, -, -, -, -, -, e0, e1⟩ := grid_maps ⟨_, ht⟩
  rw [mem_block]
  intro a
  match a with
  | ⟨0, _⟩ =>
    show win0_3.index _ 0 * 1024 ≤ (i 0).val ∧ (i 0).val < win0_3.index _ 0 * 1024 + 1024
    rw [e0]; dsimp only; omega
  | ⟨1, _⟩ =>
    show win0_3.index _ 1 * 1024 ≤ (i 1).val ∧ (i 1).val < win0_3.index _ 1 * 1024 + 1024
    rw [e1]; dsimp only; omega

/-- So the result array ends at `product`. -/
theorem result_array (c : Dev nD) : (dats m 0 c).arrAt 3 cfg0.N = product m c :=
  (dats m 0 c).arrAt_eq_of_cover 3 (product m c) (written_block m c) covered

/-- The line after the call views that array as [4, 2048, 4096]. -/
def result (c : Dev nD) : S4x2048x4096.Idx → EReal :=
  shapeCast S4x2048x4096 (product m c) shapeCasts_S8192x4096_S4x2048x4096

theorem tail_value (c : Dev nD) :
    Pipeline.afterTail₀ cfgs (dats m) 0 (V0 m) [hostOps1] c main_v10 = result m c := by
  have e : Pipeline.withArrays (cfgs 0).spec c (V0 m c) (fun w => (dats m 0 c).arrAt w (cfgs 0).N) (Proc.devRef .tc main_v9)
      = product m c :=
    (Pipeline.withArrays_arr spec0 launch0.win.arr_inj c _ _ 3).trans (result_array m c)
  unfold Pipeline.afterTail₀
  show StableHlo.after hostOps1 _ (Proc.devRef .tc main_v10) = _
  after_results
  rw [e]
  rfl

/-- Entry (b, s, n) of the kernel's result: the inner product of activation row (b, s) with dequantised weight row n,
    plus bias entry n — in the arguments the program was launched on. -/
theorem result_apply (c : Dev nD) (b : Fin 4) (s : Fin 2048) (n : Fin 4096) :
    result m c (ix3 b s n)
      = (∑ k : Fin 4096, xArg m c (ix3 b s k)
            * Cert.ReferenceIdeal.Read.val_main_v4 (F := Ideal) (m ((c : Thread nD τ).loc main_arg1))
                (m ((c : Thread nD τ).loc main_arg2)) (m ((c : Thread nD τ).loc main_arg3)) (ix2 n k))
        + biasArg m c (ix1 n) := by
  have hb : b.val < 4 := b.isLt
  have hs : s.val < 2048 := s.isLt
  have hr : b.val * 2048 + s.val < 8192 := by omega
  unfold result
  rw [shapeCast_apply (product m c) shapeCasts_S8192x4096_S4x2048x4096 (ix3 b s n) (ix2 ⟨b.val * 2048 + s.val, hr⟩ n) (by
    show (S8192x4096.rowMajor (ix2 ⟨b.val * 2048 + s.val, hr⟩ n)).val = (S4x2048x4096.rowMajor (ix3 b s n)).val
    rw [Shape.rowMajor_val_three, Shape.rowMajor_val_two]
    rfl)]
  show (∑ k : Fin 4096, acts m c (ix2 ⟨b.val * 2048 + s.val, hr⟩ k) * wts m c (ix2 n k))
      + biasRow m c (ix2 (0 : Fin 1) n) = _
  exact congrArg₂ (· + ·)
    (Finset.sum_congr rfl fun k _ =>
      congrArg₂ (· * ·) (entry_left_apply m c b s k hr) (congrFun (entry_right m c) (ix2 n k)))
    (entry_bias_apply m c n)

/-- The kernel's run, read: the result at `result`, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨
      ((h c).2 main_v10 (Pipeline.mem_restRefs_of main_v10 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Bridge.Output

end
-- ==== Proof.Reference.lean ====
/-
  The reference's result, read one entry at a time.

  The reference dequantises the weights, contracts the last axis of the activations [4, 2048, 4096] with the second axis
  of the weights, and adds the bias repeated over the two leading axes. So entry (b, s, n) is
  Σ_{k < 4096} x(b, s, k) · w(n, k) + bias(n), with w the dequantised weights.
-/
import proofs.«113895_j71880572666115_2_alg».proof.Proof.Gen.ReferenceIdeal.Read
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.Bridge.Reference

open Cert.ReferenceIdeal Cert.ReferenceIdeal.Read

/-- Entry (b, s, n) of the reference's result. -/
theorem result_apply (x0 : (⟨S4x2048x4096, .f32⟩ : BufTy).Contents (Elt Ideal)) (x1 : (⟨S4096x4096, .i32⟩ : BufTy).Contents (Elt Ideal))
    (x2 x3 : (⟨S4096x1, .f32⟩ : BufTy).Contents (Elt Ideal)) (x4 : (⟨S4096, .f32⟩ : BufTy).Contents (Elt Ideal))
    (b : Fin 4) (s : Fin 2048) (n : Fin 4096) :
    val_main_v8 (F := Ideal) x0 x1 x2 x3 x4 (ix3 b s n)
      = (∑ k : Fin 4096, x0 (ix3 b s k) * val_main_v4 (F := Ideal) x1 x2 x3 (ix2 n k)) + x4 (ix1 n) := by
  have el : ∀ k : Fin 4096, lidx_main_v5 (ix3 b s n) k = ix3 b s k := fun k => funext fun a => Fin.ext (by
    match a with
    | ⟨0, _⟩ => rfl
    | ⟨1, _⟩ => rfl
    | ⟨2, _⟩ => rfl)
  have er : ∀ k : Fin 4096, ridx_main_v5 (ix3 b s n) k = ix2 n k := fun k => funext fun a => Fin.ext (by
    match a with
    | ⟨0, _⟩ => rfl
    | ⟨1, _⟩ => rfl)
  have eb : idx_main_v6 (idx_main_v7 (ix3 b s n)) = ix1 n := funext fun a => Fin.ext (by
    match a with
    | ⟨0, _⟩ => rfl)
  rw [val_main_v8_apply, val_main_v5_apply, val_main_v7_apply, val_main_v6_apply, eb]
  simp only [el, er, Ideal.addf_def]

end Cert.Bridge.Reference

end
-- ==== Proof.lean ====
/-
  A quantised linear layer: out[b, s, n] = Σ_{k < 4096} x[b, s, k] · w[n, k] + bias[n], with the weights dequantised
  from integer codes, w[n, k] = (code[n, k] − zero_point[n]) · scale[n].

  The kernel flattens (b, s) to one row index r = b·2048 + s, dequantises the weights once, and computes X · Wᵀ + bias
  block by block on an 8 × 4 × 8 grid: output block (i, j) of 1024 × 1024 entries is accumulated over eight blocks of
  512 terms of the contracted axis, starting from zero, and the bias row is added when the last block has been
  accumulated; the result is viewed as [4, 2048, 4096] again. The reference is one contraction over all 4096 terms plus
  the bias.

  Over the extended reals a change of float format is the identity and every product and sum is exact, so the two
  agree entry by entry as soon as the eight partial sums of 512 terms, added in order onto zero, are the sum of all
  4096 terms. That holds in any commutative monoid — only commutativity and associativity of + are used, which the
  extended reals have even at the infinities — so no finiteness of the inputs is needed, and both sides dequantise the
  weights by the same operations. The three programs run and leave their arguments unchanged; the kernel's
  idealisation rewrote nothing.
-/
import proofs.«113895_j71880572666115_2_alg».proof.Defs
import proofs.«113895_j71880572666115_2_alg».proof.Proof.Gen.Kernel
import proofs.«113895_j71880572666115_2_alg».proof.Proof.Gen.Kernel.Skeleton
import proofs.«113895_j71880572666115_2_alg».proof.Proof.Gen.Kernel.Launch
import proofs.«113895_j71880572666115_2_alg».proof.Proof.Gen.Kernel.Points
import proofs.«113895_j71880572666115_2_alg».proof.Proof.Gen.Kernel.Frame
import proofs.«113895_j71880572666115_2_alg».proof.Proof.Gen.KernelIdeal
import proofs.«113895_j71880572666115_2_alg».proof.Proof.Gen.KernelIdeal.Skeleton
import proofs.«113895_j71880572666115_2_alg».proof.Proof.Gen.KernelIdeal.Launch
import proofs.«113895_j71880572666115_2_alg».proof.Proof.Gen.KernelIdeal.Points
import proofs.«113895_j71880572666115_2_alg».proof.Proof.Gen.KernelIdeal.Frame
import proofs.«113895_j71880572666115_2_alg».proof.Proof.Gen.ReferenceIdeal
import proofs.«113895_j71880572666115_2_alg».proof.Proof.Gen.ReferenceIdeal.Run
import proofs.«113895_j71880572666115_2_alg».proof.Proof.Gen.ReferenceIdeal.Read
import proofs.«113895_j71880572666115_2_alg».proof.Proof.Gen.Pre_finite_inputs
import proofs.«113895_j71880572666115_2_alg».proof.Proof.Output
import proofs.«113895_j71880572666115_2_alg».proof.Proof.Reference
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation of the kernel. -/
theorem preserves : Cert.preserves_Kernel_KernelIdeal := trivial

/-- Over the extended reals, from arguments that agree, both programs end at the same array: entry (b, s, n) of each is
    the inner product of activation row (b, s) with dequantised weight row n, plus bias entry n. -/
theorem algebraic : Cert.algebraic_KernelIdeal_ReferenceIdeal := by
  intro m ρ m' ρ' _ hagree
  refine ⟨fun c => Cert.Bridge.Output.result m c, Cert.Bridge.Output.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4, Cert.ReferenceIdeal.Read.val_main_v8_eq]
  funext i
  obtain ⟨b, s, n, rfl⟩ : ∃ (b : Fin 4) (s : Fin 2048) (n : Fin 4096), i = ix3 b s n := ⟨i 0, i 1, i 2, eq_ix3 i⟩
  refine (Cert.Bridge.Reference.result_apply _ _ _ _ _ b s n).trans ?_
  exact (Cert.Bridge.Output.result_apply m c b s n).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
